-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 7
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S1x128, .f32⟩
  | .local _ .vmem, ⟨6, _⟩ => ⟨S10000x128, .bf16⟩
  | .local _ .vmem, ⟨7, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v19 : BitVec 1 := Scalar.cmpi .eq arg0 c24_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  reduces_S400x128_S128 : S400x128.Reduces [0] S128
  shapeCasts_S1x128_S128 : S1x128.ShapeCasts S128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What each control case of the kernel body leaves behind, as the body's stored values.

  The body keeps two buffers between grid points: the support `x · w` (stored once, at the first point) and the
  running column sums. It has three control cases. At the first point it stores the support and a zero row, reads both
  back and stores the zero row plus the first tile's column sums. At a middle point it leaves the support alone and
  stores the running sums plus that tile's column sums. At the last point it does the same and then stores, into the
  output's block, the new running sums times the reciprocal of the row count. Each buffer is written by stores that
  cover it whole, so what a case leaves is the last such store's value, with every load of an untouched buffer reading
  that buffer's contents and every load after a store reading what was stored. Stated for any float instance.
-/
import proofs.«105255_g53188874994287_cont_sun_m_952_13_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GcnMean.Pieces

open Cert.KernelIdeal Cert.KernelIdeal.Gen

variable {F : FTy → Type} [FloatOps F] [Named F]

/-- The zero offsets of a whole-buffer load or store. -/
theorem hz : (![0, 0] : Fin 2 → Nat) = fun _ => 0 := funext fun a => by fin_cases a <;> rfl

/-- FIRST POINT, the support buffer: the product `x · w` of the two resident input blocks. -/
theorem first_support (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S10000x128 .bf16) (harg6 : arg6.IsWhole) (arg7 : Memref sig .tc .vmem S1x128 .f32) (harg7 : arg7.IsWhole) (hc0 : cond0_0 i) (hc1 : ¬cond0_1 i)
    (x0 : Vec F S10000x128 .f32) (x1 : Vec F S128x128 .f32) (x2 : Vec F S1x128 .f32) (x3 : Vec F S400x10000 .f32) :
    sout0_A_0 c i arg1 harg1 arg2 harg2 arg3 harg3 arg4 harg4 arg5 harg5 arg6 harg6 arg7 harg7 hc0 hc1 x0 x1 x2 x3 = k0_pay1 x0 x1 := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  sl_unfold_words
  rw [View.canon_unit_zero hz]
  simp only [View.readAt_eq_ld, harg1.read_unread, harg2.read_unread, harg3.read_unread, harg4.read_unread, harg6.read_unread, harg7.read_unread, View.ld_unit_zero (S := S400x10000) hz, View.ld_unit_zero (S := S10000x128) hz, View.ld_unit_zero (S := S128x128) hz, View.ld_unit_zero (S := S1x128) hz]

/-- FIRST POINT, the running sums: the zero row plus the first tile's column sums, over the support just stored. -/
theorem first_sums (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S10000x128 .bf16) (harg6 : arg6.IsWhole) (arg7 : Memref sig .tc .vmem S1x128 .f32) (harg7 : arg7.IsWhole) (hc0 : cond0_0 i) (hc1 : ¬cond0_1 i)
    (x0 : Vec F S10000x128 .f32) (x1 : Vec F S128x128 .f32) (x2 : Vec F S1x128 .f32) (x3 : Vec F S400x10000 .f32) :
    sout0_A_1 c i arg1 harg1 arg2 harg2 arg3 harg3 arg4 harg4 arg5 harg5 arg6 harg6 arg7 harg7 hc0 hc1 x0 x1 x2 x3 = k0_pay3 x3 (k0_pay1 x0 x1) x2 k0_pay2 := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S1x128) hz, View.readCov_unit_zero (S := S10000x128) _ hz,
    View.readCov_unit_zero (S := S1x128) _ hz]
  simp only [View.readAt_eq_ld, harg1.read_unread, harg2.read_unread, harg3.read_unread, harg4.read_unread, harg6.read_unread, harg7.read_unread, View.ld_unit_zero (S := S400x10000) hz, View.ld_unit_zero (S := S10000x128) hz, View.ld_unit_zero (S := S128x128) hz, View.ld_unit_zero (S := S1x128) hz]

/-- MIDDLE POINT, the running sums: what the point before left plus this tile's column sums. -/
theorem middle_sums (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S10000x128 .bf16) (harg6 : arg6.IsWhole) (arg7 : Memref sig .tc .vmem S1x128 .f32) (harg7 : arg7.IsWhole) (hc0 : ¬cond0_0 i) (hc1 : ¬cond0_1 i)
    (x0 : Vec F S10000x128 .f32) (x1 : Vec F S128x128 .f32) (x2 : Vec F S1x128 .f32) (x3 : Vec F S400x10000 .f32) (xs0 : Vec F S10000x128 .bf16) (xs1 : Vec F S1x128 .f32) :
    sout0_B_1 c i arg1 harg1 arg2 harg2 arg3 harg3 arg4 harg4 arg5 harg5 arg6 harg6 arg7 harg7 hc0 hc1 x0 x1 x2 x3 xs0 xs1 = k0_pay3 x3 xs0 x2 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  rw [View.canon_unit_zero hz]
  simp only [View.readAt_eq_ld, harg1.read_unread, harg2.read_unread, harg3.read_unread, harg4.read_unread, harg6.read_unread, harg7.read_unread, View.ld_unit_zero (S := S400x10000) hz, View.ld_unit_zero (S := S10000x128) hz, View.ld_unit_zero (S := S128x128) hz, View.ld_unit_zero (S := S1x128) hz]

/-- LAST POINT, the running sums: what the point before left plus the last tile's column sums. -/
theorem last_sums (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S10000x128 .bf16) (harg6 : arg6.IsWhole) (arg7 : Memref sig .tc .vmem S1x128 .f32) (harg7 : arg7.IsWhole) (hc0 : ¬cond0_0 i) (hc1 : cond0_1 i)
    (x0 : Vec F S10000x128 .f32) (x1 : Vec F S128x128 .f32) (x2 : Vec F S1x128 .f32) (x3 : Vec F S400x10000 .f32) (xs0 : Vec F S10000x128 .bf16) (xs1 : Vec F S1x128 .f32) :
    sout0_C_1 c i arg1 harg1 arg2 harg2 arg3 harg3 arg4 harg4 arg5 harg5 arg6 harg6 arg7 harg7 hc0 hc1 x0 x1 x2 x3 xs0 xs1 = k0_pay3 x3 xs0 x2 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg6.read_unread, harg7.read_unread, View.ld_unit_zero (S := S400x10000) hz, View.ld_unit_zero (S := S10000x128) hz, View.ld_unit_zero (S := S128x128) hz, View.ld_unit_zero (S := S1x128) hz]

/-- LAST POINT, the output's block: the new running sums, read back, times the reciprocal of the row count. -/
theorem last_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S1x128 .f32) (harg5 : arg5.IsWhole) (arg6 : Memref sig .tc .vmem S10000x128 .bf16) (harg6 : arg6.IsWhole) (arg7 : Memref sig .tc .vmem S1x128 .f32) (harg7 : arg7.IsWhole) (hc0 : ¬cond0_0 i) (hc1 : cond0_1 i)
    (x0 : Vec F S10000x128 .f32) (x1 : Vec F S128x128 .f32) (x2 : Vec F S1x128 .f32) (x3 : Vec F S400x10000 .f32) (xs0 : Vec F S10000x128 .bf16) (xs1 : Vec F S1x128 .f32) :
    out0_C_4 c i arg1 harg1 arg2 harg2 arg3 harg3 arg4 harg4 arg5 harg5 arg6 harg6 arg7 harg7 hc0 hc1 x0 x1 x2 x3 xs0 xs1 = k0_pay4 (k0_pay3 x3 xs0 x2 xs1) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz, View.readCov_unit_zero (S := S1x128) _ hz]
  simp only [View.readAt_eq_ld, harg1.read_unread, harg2.read_unread, harg3.read_unread, harg4.read_unread, harg6.read_unread, harg7.read_unread, View.ld_unit_zero (S := S400x10000) hz, View.ld_unit_zero (S := S10000x128) hz, View.ld_unit_zero (S := S128x128) hz, View.ld_unit_zero (S := S1x128) hz]

end Cert.GcnMean.Pieces

end
-- ==== Proof.Points.lean ====
/-
  The two buffers the kernel carries between grid points, after every point, and the output block after the last.

  The support buffer holds `x · w` from the first point on: it is stored there and no later point touches it. The
  running column sums after point `n` are a chain: the zero row plus tile 0's column sums after the first point, and
  after each later point what the point before left plus that point's tile's column sums, always over the same support
  and the same bias row. After the last point the output's block holds the last running sums times the reciprocal of
  the row count. All by induction on the point over the three control cases; stated for any float instance.
-/
import proofs.«105255_g53188874994287_cont_sun_m_952_13_alg».proof.Proof.Pieces

noncomputable section

open Idealize.ShloMosaic Idealize.ShloMosaic.TcCoe Idealize.SL.Sem
open Idealize.ShloMosaic.Pipeline (Dat)

namespace Cert.GcnMean.Points

open Cert.KernelIdeal Cert.KernelIdeal.Gen Cert.GcnMean.Pieces

variable {F : FTy → Type} [FloatOps F] [Named F]
variable (m : (ℓ : Loc nD τ sig) → Buf (Elt F) ℓ)

theorem N_pos : 0 < cfg0.N := by rw [show cfg0.N = 25 from N_0]; decide

/-- The first grid point. -/
abbrev tFirst : Fin cfg0.N := ⟨0, N_pos⟩

/-- The support the kernel keeps: the product of the two resident blocks, as the first point stores it. -/
def supp (c : Dev nD) : Vec F S10000x128 .bf16 := k0_pay1 (iblk m c 0 tFirst) (iblk m c 1 tFirst)

/-- The running column sums after point `n`. -/
def sums (c : Dev nD) : (n : ℕ) → n < cfg0.N → Vec F S1x128 .f32
  | 0, h => k0_pay3 (iblk m c 3 ⟨0, h⟩) (supp m c) (iblk m c 2 ⟨0, h⟩) k0_pay2
  | n + 1, h => k0_pay3 (iblk m c 3 ⟨n + 1, h⟩) (supp m c) (iblk m c 2 ⟨n + 1, h⟩) (sums c n (Nat.lt_of_succ_lt h))

/-- After the first point the carried buffers hold the support and the first running sums. -/
theorem carried_first (c : Dev nD) (h : 0 < cfg0.N) :
    (outsAt0 m c 0 h).2.1 = supp m c ∧ (outsAt0 m c 0 h).2.2 = sums m c 0 h := by
  have h24 : ¬(⟨0, h⟩ : Fin cfg0.N).val % 25 = 24 := by dsimp only; omega
  have hc0 : cond0_0 (grid0.coords (⟨0, h⟩ : Fin cfg0.N)) := (hcond0_0 ⟨0, h⟩).mpr rfl
  have hc1 : ¬cond0_1 (grid0.coords (⟨0, h⟩ : Fin cfg0.N)) := fun h' => h24 ((hcond0_1 ⟨0, h⟩).mp h')
  rw [outsAt0_A m c ⟨0, h⟩ rfl h24, supp, sums]
  dsimp only
  exact ⟨first_support c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) hc0 hc1 (iblk m c 0 ⟨0, h⟩) (iblk m c 1 ⟨0, h⟩) (iblk m c 2 ⟨0, h⟩) (iblk m c 3 ⟨0, h⟩),
    first_sums c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) scM0_1 (Memref.isWhole_whole _) hc0 hc1 (iblk m c 0 ⟨0, h⟩) (iblk m c 1 ⟨0, h⟩) (iblk m c 2 ⟨0, h⟩) (iblk m c 3 ⟨0, h⟩)⟩

/-- A later point keeps the support and adds its tile's column sums to the running sums. -/
theorem carried_next (c : Dev nD) (n : ℕ) (h : n + 1 < cfg0.N)
    (ih : (outsAt0 m c n (Nat.lt_of_succ_lt h)).2.1 = supp m c ∧ (outsAt0 m c n (Nat.lt_of_succ_lt h)).2.2 = sums m c n (Nat.lt_of_succ_lt h)) :
    (outsAt0 m c (n + 1) h).2.1 = supp m c ∧ (outsAt0 m c (n + 1) h).2.2 = sums m c (n + 1) h := by
  have hN : cfg0.N = 25 := N_0
  have h0 : ¬(⟨n + 1, h⟩ : Fin cfg0.N).val % 25 = 0 := by dsimp only; omega
  have hc0 : ¬cond0_0 (grid0.coords (⟨n + 1, h⟩ : Fin cfg0.N)) := fun h' => h0 ((hcond0_0 ⟨n + 1, h⟩).mp h')
  rw [sums]
  by_cases h1 : (⟨n + 1, h⟩ : Fin cfg0.N).val % 25 = 24
  · have hc1 : cond0_1 (grid0.coords (⟨n + 1, h⟩ : Fin cfg0.N)) := (hcond0_1 ⟨n + 1, h⟩).mpr h1
    rw [outsAt0_C m c ⟨n + 1, h⟩ h0 h1]
    dsimp only [Nat.add_one_sub_one]
    rw [sout0_C_0, ih.1, ih.2]
    exact ⟨rfl, last_sums c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) hc0 hc1 (iblk m c 0 ⟨n + 1, h⟩) (iblk m c 1 ⟨n + 1, h⟩) (iblk m c 2 ⟨n + 1, h⟩) (iblk m c 3 ⟨n + 1, h⟩) (supp m c) (sums m c n (Nat.lt_of_succ_lt h))⟩
  · have hc1 : ¬cond0_1 (grid0.coords (⟨n + 1, h⟩ : Fin cfg0.N)) := fun h' => h1 ((hcond0_1 ⟨n + 1, h⟩).mp h')
    rw [outsAt0_B m c ⟨n + 1, h⟩ h0 h1]
    dsimp only [Nat.add_one_sub_one]
    rw [sout0_B_0, ih.1, ih.2]
    exact ⟨rfl, middle_sums c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) hc0 hc1 (iblk m c 0 ⟨n + 1, h⟩) (iblk m c 1 ⟨n + 1, h⟩) (iblk m c 2 ⟨n + 1, h⟩) (iblk m c 3 ⟨n + 1, h⟩) (supp m c) (sums m c n (Nat.lt_of_succ_lt h))⟩

/-- After every point the carried buffers hold the support and the running sums. -/
theorem carried (c : Dev nD) (n : ℕ) (h : n < cfg0.N) :
    (outsAt0 m c n h).2.1 = supp m c ∧ (outsAt0 m c n h).2.2 = sums m c n h := by
  induction n with
  | zero => exact carried_first m c h
  | succ n ih => exact carried_next m c n h (ih (Nat.lt_of_succ_lt h))

/-- After a point where the output is written (the last), its block holds that point's running sums times the
    reciprocal of the row count. -/
theorem out_written (c : Dev nD) (n : ℕ) (h : n + 1 < cfg0.N) (h1 : (n + 1) % 25 = 24) :
    (outsAt0 m c (n + 1) h).1 = k0_pay4 (sums m c (n + 1) h) := by
  have hN : cfg0.N = 25 := N_0
  have h0 : ¬(⟨n + 1, h⟩ : Fin cfg0.N).val % 25 = 0 := by dsimp only; omega
  have ih := carried m c n (Nat.lt_of_succ_lt h)
  have hc0 : ¬cond0_0 (grid0.coords (⟨n + 1, h⟩ : Fin cfg0.N)) := fun h' => h0 ((hcond0_0 ⟨n + 1, h⟩).mp h')
  have hc1 : cond0_1 (grid0.coords (⟨n + 1, h⟩ : Fin cfg0.N)) := (hcond0_1 ⟨n + 1, h⟩).mpr h1
  rw [sums, outsAt0_C m c ⟨n + 1, h⟩ h0 h1]
  dsimp only [Nat.add_one_sub_one]
  rw [ih.1, ih.2]
  exact last_out c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) hc0 hc1 (iblk m c 0 ⟨n + 1, h⟩) (iblk m c 1 ⟨n + 1, h⟩) (iblk m c 2 ⟨n + 1, h⟩) (iblk m c 3 ⟨n + 1, h⟩) (supp m c) (sums m c n (Nat.lt_of_succ_lt h))

end Cert.GcnMean.Points

end
-- ==== Proof.KernelRun.lean ====
/-
  The kernel program's run, read.

  After every weakly fair execution the result buffer holds the last running column sums times the reciprocal of the
  row count, re-laid from one row of 128 entries to a vector of 128 entries, and the four argument arrays hold what
  they held at launch. The output array is one row of 128 entries and its block is the whole row at every grid point;
  only the last of the 25 points writes its block back, so the array ends holding what that point left. Stated for any
  float instance: no arithmetic is done here.
-/
import proofs.«105255_g53188874994287_cont_sun_m_952_13_alg».proof.Proof.Points
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.GcnMean.KernelRun

open Cert.KernelIdeal Cert.KernelIdeal.Gen Cert.GcnMean.Points

variable {F : FTy → Type} [FloatOps F] [Named F]
variable (m : (ℓ : Loc nD τ sig) → Buf (Elt F) ℓ) (ρ : Dev nD → PrngReg)

/-- The last grid point is point 24 of 25. -/
theorem last_lt : 23 + 1 < cfg0.N := by rw [show cfg0.N = 25 from N_0]; decide

/-- The output row: the last running sums times the reciprocal of the row count. -/
def outRow (c : Dev nD) : Buf (Elt F) ((c : Thread nD τ).loc main_v1) := k0_pay4 (sums m c (23 + 1) last_lt)

/-- The one write-back, at the last point, writes the output row: block `(0, 0)` of the one-row array, read through
    zero offsets, is the array. -/
theorem flushed_eq (c : Dev nD) (t : Fin cfg0.N) (hf : (cfg0.win 4).flush t = true) :
    (dats m 0 c).flushed 4 t = ((cfg0.win 4).blk t).view.read (Elt F) (outRow m c) := by
  have hN : cfg0.N = 25 := N_0
  have h24 : t.val = 23 + 1 := by have := (flush0_4 t).mp hf; have := t.isLt; omega
  obtain rfl : t = ⟨23 + 1, last_lt⟩ := Fin.ext h24
  show (cfg0.win 4).cut (grid0.coords ⟨23 + 1, last_lt⟩) ((dats m 0 c).after 4 ⟨23 + 1, last_lt⟩) = _
  rw [after0_4]
  show (cfg0.win 4).cut (grid0.coords ⟨23 + 1, last_lt⟩) (outsAt0 m c (23 + 1) last_lt).1 = _
  rw [out_written m c 23 last_lt (by decide)]
  have hz : (fun a => win0_4.index ⟨23 + 1, last_lt⟩ a * main_v1.ty.shape.size a) = fun _ => 0 :=
    funext fun a => by fin_cases a <;> decide +kernel
  exact (Memref.read_access_unit_zero (Elt F) main_v1 hz (fun a => by rw [congrFun hz a]; simp) (outRow m c)).symm

/-- So the output array ends holding the output row: the last point's block covers all of it. -/
theorem final_out (c : Dev nD) : (dats m 0 c).arrAt 4 cfg0.N = outRow m c :=
  (dats m 0 c).arrAt_eq_of_cover 4 (outRow m c) (flushed_eq m c) fun i =>
    ⟨⟨23 + 1, last_lt⟩, (flush0_4 ⟨23 + 1, last_lt⟩).mpr (by decide), by
      show i ∈ ((View.whole main_v1).slice (win0_4.rect ⟨23 + 1, last_lt⟩)).set
      rw [View.set_slice_whole, Rect.mem_set_unit]
      intro a
      have h0 : (i 0 : Nat) < 1 := (i 0).isLt
      have h1 : (i 1 : Nat) < 128 := (i 1).isLt
      match a with
      | ⟨0, _⟩ =>
        show win0_4.index ⟨23 + 1, last_lt⟩ 0 * win0_4.size 0 ≤ (i 0 : Nat)
          ∧ (i 0 : Nat) < win0_4.index ⟨23 + 1, last_lt⟩ 0 * win0_4.size 0 + win0_4.xsize (grid0.coords ⟨23 + 1, last_lt⟩) 0
        rw [show win0_4.index ⟨23 + 1, last_lt⟩ 0 * win0_4.size 0 = 0 from by decide +kernel,
          show win0_4.xsize (grid0.coords ⟨23 + 1, last_lt⟩) 0 = 1 from by decide +kernel]
        omega
      | ⟨1, _⟩ =>
        show win0_4.index ⟨23 + 1, last_lt⟩ 1 * win0_4.size 1 ≤ (i 1 : Nat)
          ∧ (i 1 : Nat) < win0_4.index ⟨23 + 1, last_lt⟩ 1 * win0_4.size 1 + win0_4.xsize (grid0.coords ⟨23 + 1, last_lt⟩) 1
        rw [show win0_4.index ⟨23 + 1, last_lt⟩ 1 * win0_4.size 1 = 0 from by decide +kernel,
          show win0_4.xsize (grid0.coords ⟨23 + 1, last_lt⟩) 1 = 128 from by decide +kernel]
        omega⟩

/-- The one host line after the region re-lays the output array, one row of 128 entries, as the result buffer's
    128 entries. -/
theorem tail_v2 (c : Dev nD) :
    Pipeline.afterTail₀ cfgs (dats m) 0 (V0 m) [hostOps1] c main_v2
      = shapeCast S128 (outRow m c) shapeCasts_S1x128_S128 := by
  unfold Pipeline.afterTail₀
  show StableHlo.after hostOps1 _ (Proc.devRef .tc main_v2) = _
  after_results
  exact congrArg (fun v => shapeCast S128 v shapeCasts_S1x128_S128)
    ((Pipeline.withArrays_arr spec0 launch0.win.arr_inj c _ _ 4).trans (final_out m c))

/-- The run, read: the result buffer at the output row re-laid as a vector, the four argument arrays unchanged. -/
theorem run : θ_run defs (onTc (τ := τ) (main (F := F))) ⟨m, fun _ => 0, ρ⟩ fun r => ∀ c : Dev nD,
      r.2.mem ((c.tc : Thread nD τ).loc main_v2) = shapeCast S128 (outRow m c) shapeCasts_S1x128_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.GcnMean.KernelRun

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.Spec.lean ====
/-
  The function both programs compute, written once over plain index types.

  For node features `x` (10000 × 128), a dense adjacency `adj` (10000 × 10000), a weight `w` (128 × 128) and a bias
  `b` (128) the result at column `c` is the mean over the 10000 rows `r` of
  `tanh ((adj · (x · w))[r, c] + b[c])`. The reference forms the whole column sum and divides it by 10000. The kernel
  walks the rows in 25 tiles of 400, adds each tile's column sum to a running sum, and multiplies the last running sum
  by the reciprocal of 10000. Everything is over the extended reals; no entry is assumed finite.
-/
import Idealize.ShloMosaic.PureOps.Ideal.Laws
import Idealize.ShloMosaic.Lib.ValueIdx

noncomputable section

open scoped BigOperators

namespace Cert.GcnMean

open Idealize.ShloMosaic Idealize.ShloMosaic.ValueIdx

/-- Row `q` of row tile `t`: the tiles are 400 rows high and stacked in order. -/
def tileRow (t : Fin 25) (q : Fin 400) : Fin 10000 := ⟨400 * t.val + q.val, by omega⟩

/-- The support `x · w` at `(k, c)`. -/
def support (x : (⟨2, ![10000, 128]⟩ : Shape).Idx → EReal) (w : (⟨2, ![128, 128]⟩ : Shape).Idx → EReal)
    (k : Fin 10000) (c : Fin 128) : EReal :=
  ∑ d : Fin 128, x (ix2 k d) * w (ix2 d c)

/-- The activation `tanh ((adj · s)[r, c] + b[c])` for a support `s` and a bias `b` given entry by entry. -/
def act (adj : (⟨2, ![10000, 10000]⟩ : Shape).Idx → EReal) (s : Fin 10000 → Fin 128 → EReal) (b : Fin 128 → EReal)
    (r : Fin 10000) (c : Fin 128) : EReal :=
  Ideal.tanh ((∑ k : Fin 10000, adj (ix2 r k) * s k c) + b c)

/-- The column sum of the activations over the 400 rows of tile `t`. -/
def tileSum (adj : (⟨2, ![10000, 10000]⟩ : Shape).Idx → EReal) (s : Fin 10000 → Fin 128 → EReal) (b : Fin 128 → EReal)
    (t : Fin 25) (c : Fin 128) : EReal :=
  ∑ q : Fin 400, act adj s b (tileRow t q) c

/-- THE RESULT as the reference spells it: the column sum over all rows, from the zero word, divided by the word of
    10000. -/
def colMean (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (c : Fin 128) : EReal :=
  Ideal.div (Ideal.ofBits .f32 0x00000000#32 + ∑ r : Fin 10000, act adj (support x w) (fun c' => b (ix1 c')) r c)
    (Ideal.ofBits .f32 0x461C4000#32)

end Cert.GcnMean

end
-- ==== Proof.Payload.lean ====
/-
  The kernel body's four stored values, read at an entry, at the exact instance.

  The body stores four values. The first is the support `x · w` (a change of float format is the identity on extended
  reals, and so is a cast between equal shapes). The second is the zero row the running sum starts from. The third adds
  to the running sum, column by column, the sum over the block's 400 rows of `tanh (a · s + b)`, the bias row `b`
  repeated on every row. The fourth multiplies the running sum by the named reciprocal of 10000, which at the exact
  instance is the rational `1 / 10000`. Each is read here at one entry `(0, c)` or `(k, c)` as a plain expression
  over extended reals; nothing is assumed finite.
-/
import proofs.«105255_g53188874994287_cont_sun_m_952_13_alg».proof.Proof.Gen.KernelIdeal.Skeleton
import proofs.«105255_g53188874994287_cont_sun_m_952_13_alg».proof.Proof.LibMatmulIdx
import proofs.«105255_g53188874994287_cont_sun_m_952_13_alg».proof.Proof.Spec
import Idealize.ShloMosaic.Lib.Pipeline.Value
import Idealize.ShloMosaic.Lib.ValueLayout
import Idealize.ShloMosaic.PureOps.IdealRules

noncomputable section

open scoped BigOperators

namespace Cert.GcnMean.Payload

open Idealize.ShloMosaic Idealize.ShloMosaic.ValueIdx Cert.KernelIdeal Cert.KernelIdeal.Gen

/-- The named reciprocal denotes the rational `1 / 10000` at the exact instance, by the certificate's table. -/
theorem inv_n : Named.named (F := Ideal) Cert.KernelIdeal.κ "inv_10000" (φ := .f32) 0x38D1B717#32 = ((1 / 10000 : ℝ) : EReal) :=
  IdealRules.named_const.ideal_named_scalar _ _ _ _ rfl

/-- The support `x · w` at `(k, c)`: the format change and the cast between equal shapes are the identity. -/
theorem pay1_apply (x : Vec Ideal S10000x128 .f32) (w : Vec Ideal S128x128 .f32) (k : Fin 10000) (c : Fin 128) :
    k0_pay1 (F := Ideal) x w (ix2 k c) = Cert.GcnMean.support x w k c := by
  unfold k0_pay1
  rw [shapeCast_self]
  exact Cert.MatmulIdx.matmul_plain_zero_apply (φ₁ := .f32) (φ₂ := .f32) none x w k c

/-- The zero row: every entry is the extended real `0`. -/
theorem pay2_apply (c : Fin 128) : k0_pay2 (F := Ideal) (ix2 (0 : Fin 1) c) = 0 := by
  unfold k0_pay2
  rw [shapeCast_self]
  exact Ideal.ofBits_zero_f32

/-- The last store: the running sum times `1 / 10000`. -/
theorem pay4_apply (acc : Vec Ideal S1x128 .f32) (c : Fin 128) :
    k0_pay4 (F := Ideal) acc (ix2 (0 : Fin 1) c) = acc (ix2 (0 : Fin 1) c) * ((1 / 10000 : ℝ) : EReal) := by
  unfold k0_pay4
  exact congrArg (acc (ix2 (0 : Fin 1) c) * ·) inv_n

/-- The lane sum's inserted index: column `c` with row `q` put on the summed axis is the entry `(q, c)`. -/
theorem lift_ix (c : Fin 128) (q : Fin 400) :
    reduces_S400x128_S128.lift (ix1 c) q = ix2 q c := by
  funext a
  match a with
  | ⟨0, _⟩ => exact Fin.ext rfl
  | ⟨1, _⟩ => exact Fin.ext rfl

/-- The running sum's update at column `c`: the old value plus the sum over the block's 400 rows of
    `tanh ((a · s)[q, c] + b[c])`. -/
theorem pay3_apply (a : Vec Ideal S400x10000 .f32) (s : Vec Ideal S10000x128 .bf16) (b2 : Vec Ideal S1x128 .f32)
    (acc : Vec Ideal S1x128 .f32) (c : Fin 128) :
    k0_pay3 (F := Ideal) a s b2 acc (ix2 (0 : Fin 1) c)
      = acc (ix2 (0 : Fin 1) c)
        + ∑ q : Fin 400, Ideal.tanh ((∑ k : Fin 10000, a (ix2 q k) * s (ix2 k c)) + b2 (ix2 (0 : Fin 1) c)) := by
  unfold k0_pay3
  rw [shapeCast_self, shapeCast_self]
  refine congrArg (acc (ix2 (0 : Fin 1) c) + ·) ?_
  refine (shapeCast_a_1a_apply _ _ (0 : Fin 1) c).trans ?_
  refine (Ideal.multiReduction_add_single _ _ _ _ _ (ix1 c)).trans ?_
  refine Finset.sum_congr rfl fun (q : Fin 400) _ => ?_
  rw [lift_ix]
  refine congrArg Ideal.tanh ?_
  refine congrArg₂ (· + ·) ?_ ?_
  · exact Cert.MatmulIdx.matmul_plain_zero_apply (φ₁ := .bf16) (φ₂ := .bf16) none (truncf .bf16 a bitsLt_bf16_f32) s q c
  · exact broadcastTo_1b_ab_apply b2 _ q c

end Cert.GcnMean.Payload

end
-- ==== Proof.Algebra.lean ====
/-
  Pure algebra over the extended reals for the tiled column mean.

  Three facts are used by the comparison of the two programs: the 25 tiles of 400 rows enumerate the 10000 rows
  exactly once, so a sum over tiles of sums over tile rows is the sum over all rows; the divisor word denotes the
  real 10000, so dividing by it is multiplying by the real 1 / 10000 on every extended real; and a running sum that
  adds one term per step ends at the sum of all terms. None of them needs distributivity, which the extended reals
  do not have.
-/
import proofs.«105255_g53188874994287_cont_sun_m_952_13_alg».proof.Proof.Spec

noncomputable section

open scoped BigOperators

namespace Cert.GcnMean

open Idealize.ShloMosaic

/-- Rows of the 25 × 400 tiling: the pair (tile, row in tile) and the row `400 * tile + row in tile` determine
    each other by division with remainder. -/
def tileEquiv : Fin 25 × Fin 400 ≃ Fin 10000 where
  toFun p := tileRow p.1 p.2
  invFun r := (⟨r.val / 400, by omega⟩, ⟨r.val % 400, by omega⟩)
  left_inv := by
    rintro ⟨⟨t, ht⟩, ⟨q, hq⟩⟩
    simp only [tileRow]
    refine Prod.ext (Fin.ext ?_) (Fin.ext ?_)
    · show (400 * t + q) / 400 = t
      omega
    · show (400 * t + q) % 400 = q
      omega
  right_inv := by
    rintro ⟨r, hr⟩
    simp only [tileRow]
    refine Fin.ext ?_
    show 400 * (r / 400) + r % 400 = r
    omega

/-- The 25 tiles of 400 rows list every row once. -/
theorem sum_tiles (f : Fin 10000 → EReal) : ∑ t : Fin 25, ∑ q : Fin 400, f (tileRow t q) = ∑ r : Fin 10000, f r := by
  rw [← Fintype.sum_prod_type (f := fun p : Fin 25 × Fin 400 => f (tileRow p.1 p.2))]
  exact Equiv.sum_comp tileEquiv f

/-- The word of 10000.0 denotes the real 10000. -/
theorem ofBits_ten_thousand : Ideal.ofBits .f32 0x461C4000#32 = ((10000 : ℝ) : EReal) := by
  simp [Ideal.ofBits, Ideal.ieee, -EReal.coe_mul]; norm_num

/-- The kernel's product with the reciprocal is the reference's quotient, on every extended real. -/
theorem tiled_mean_eq (f : Fin 10000 → EReal) :
    (∑ t : Fin 25, ∑ q : Fin 400, f (tileRow t q)) * (((1 / 10000 : ℝ) : ℝ) : EReal)
      = Ideal.div (Ideal.ofBits .f32 0x00000000#32 + ∑ r : Fin 10000, f r) (Ideal.ofBits .f32 0x461C4000#32) := by
  rw [sum_tiles, Ideal.ofBits_zero_f32, zero_add, ofBits_ten_thousand,
    Ideal.div_coe (by norm_num : (10000 : ℝ) ≠ 0)]

/-- A running sum that starts at `0 + g 0` and adds `g (n + 1)` at step `n + 1` ends at the whole sum. -/
theorem running_sum (g : Fin 25 → EReal) (a : (n : ℕ) → n < 25 → EReal)
    (h0 : ∀ h, a 0 h = 0 + g ⟨0, h⟩)
    (hs : ∀ n (h : n + 1 < 25), a (n + 1) h = a n (Nat.lt_of_succ_lt h) + g ⟨n + 1, h⟩) :
    a 24 (by decide) = ∑ t : Fin 25, g t := by
  -- The partial sums: after step `n` the running sum is the sum of the first `n + 1` terms.
  have key : ∀ n (h : n < 25), a n h = ∑ t ∈ Finset.range (n + 1), (if ht : t < 25 then g ⟨t, ht⟩ else 0) := by
    intro n
    induction n with
    | zero =>
      intro h
      rw [h0 h, zero_add, Finset.sum_range_one, dif_pos h]
    | succ n ih =>
      intro h
      rw [hs n h, ih (Nat.lt_of_succ_lt h), Finset.sum_range_succ _ (n + 1), dif_pos h]
  rw [key 24 (by decide), Finset.sum_range]
  exact Finset.sum_congr rfl (fun t _ => dif_pos t.isLt)

end Cert.GcnMean

end
-- ==== Proof.Blocks.lean ====
/-
  What the kernel's four input windows hold at a grid point, read off the argument arrays.

  The grid has 25 points. Three windows do not move: their one block is the whole array, so at every point the
  window of the node features holds `x`, the window of the weight holds `w`, and the window of the bias holds the
  bias viewed as a single row of 128 entries (the view the host makes before the kernel starts: entry `(0, col)` of
  the row is entry `col` of the bias). The fourth window walks down the adjacency matrix in blocks of 400 rows:
  at point `n` its entry `(q, k)` is the adjacency's entry `(400 n + q, k)`, that is row `tileRow n q`.

  In each case a block's coordinate on an axis is the block's index on that axis times the block's size, plus the
  coordinate inside the block; the indices are decided once over the 25 grid points and the rest is linear
  arithmetic. Nothing here is about the float arithmetic, so every statement holds for any float instance.
-/
import proofs.«105255_g53188874994287_cont_sun_m_952_13_alg».proof.Proof.Gen.KernelIdeal.Frame
import proofs.«105255_g53188874994287_cont_sun_m_952_13_alg».proof.Proof.Spec
import Idealize.ShloMosaic.Lib.Pipeline.Value
import Idealize.ShloMosaic.Lib.ValueLayout
import Idealize.ShloMosaic.Lib.StableHlo.Run
import Idealize.ShloMosaic.Lib.Tactic

noncomputable section

namespace Cert.GcnMean.Blocks

open Idealize.ShloMosaic Idealize.ShloMosaic.TcCoe Idealize.ShloMosaic.ValueIdx Idealize.SL.Sem Cert.KernelIdeal Cert.KernelIdeal.Gen

variable {F : FTy → Type} [FloatOps F] [Named F] (m : (ℓ : Loc nD τ sig) → Buf (Elt F) ℓ)

/-- The window of the node features holds the whole array `x` at every point: its block is 10000 × 128 at block
    index (0, 0), so the block's entry `j` is the array's entry `0 · 10000 + j₀, 0 · 128 + j₁`. -/
theorem block_x (c : Dev nD) (t : Fin cfg0.N) :
    (iblk m c 0 t : Vec F S10000x128 .f32) = m ((c : Thread nD τ).loc main_arg0) := by
  have hi : win0_0.index t (0 : Fin 2) = 0 ∧ win0_0.index t (1 : Fin 2) = 0 :=
    (by decide +kernel : ∀ t : Fin grid0.N, win0_0.index t (0 : Fin 2) = 0 ∧ win0_0.index t (1 : Fin 2) = 0) t
  funext j
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * (j 0).val = (j 0).val; rw [hi.1]; omega
  | ⟨1, _⟩ => show win0_0.index t 1 * 128 + 1 * (j 1).val = (j 1).val; rw [hi.2]; omega

/-- The window of the weight holds the whole array `w` at every point: its block is 128 × 128 at block index
    (0, 0). -/
theorem block_w (c : Dev nD) (t : Fin cfg0.N) :
    (iblk m c 1 t : Vec F S128x128 .f32) = m ((c : Thread nD τ).loc main_arg2) := by
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext j
  unfold iblk
  rw [View.read_apply]
  show V m c main_arg2 _ = m (c.tc.loc main_arg2) _
  rw [V_main_arg2]
  congr 1
  funext a
  apply Fin.ext
  match a with
  | ⟨0, _⟩ => show win0_1.index t 0 * 128 + 1 * (j 0).val = (j 0).val; rw [hi.1]; omega
  | ⟨1, _⟩ => show win0_1.index t 1 * 128 + 1 * (j 1).val = (j 1).val; rw [hi.2]; omega

/-- When the kernel starts, the 1 × 128 row it reads the bias from is the bias of 128 entries reshaped: the one
    host operation before the kernel writes exactly that, and nothing else writes the row. -/
theorem row_eq_reshape (c : Dev nD) :
    (V m c main_v0 : S1x128.Idx → Elt F .f32)
      = shapeCast S1x128 (m ((c : Thread nD τ).loc main_arg3)) shapeCasts_S128_S1x128 := by
  show StableHlo.after hostOps0 (fun b => m (c, b)) (Proc.devRef .tc main_v0) = _
  after_results
  rfl

/-- The window of the bias holds, at every point and at `(0, col)`, entry `col` of the bias: the block is the whole
    1 × 128 row, and the reshape keeps row-major positions, `0 · 128 + col = col`. -/
theorem block_b (c : Dev nD) (t : Fin cfg0.N) (col : Fin 128) :
    (iblk m c 2 t : Vec F S1x128 .f32) (ix2 (0 : Fin 1) col) = m ((c : Thread nD τ).loc main_arg3) (ix1 col) := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  rw [View.read_apply]
  show V m c main_v0 _ = m (c.tc.loc main_arg3) _
  rw [row_eq_reshape]
  refine shapeCast_apply _ _ _ (ix1 col) ?_
  rw [Shape.rowMajor_val_one, Shape.rowMajor_val_two]
  show col.val = (win0_2.index t 0 * 1 + 1 * 0) * 128 + (win0_2.index t 1 * 128 + 1 * col.val)
  rw [hi.1, hi.2]
  omega

/-- The window of the adjacency holds, at point `n`, rows `400 n … 400 n + 399`: its block is 400 × 10000 at block
    index `(n, 0)`, so its entry `(q, k)` is the adjacency's entry `(n · 400 + q, 0 · 10000 + k)`, row
    `tileRow n q` and column `k`. -/
theorem block_adj (c : Dev nD) (n : ℕ) (hn : n < cfg0.N) (hn' : n < 25) (q : Fin 400) (k : Fin 10000) :
    (iblk m c 3 ⟨n, hn⟩ : Vec F S400x10000 .f32) (ix2 q k)
      = m ((c : Thread nD τ).loc main_arg1) (ix2 (Cert.GcnMean.tileRow ⟨n, hn'⟩ q) k) := by
  have hi : win0_3.index ⟨n, hn⟩ (0 : Fin 2) = n ∧ win0_3.index ⟨n, hn⟩ (1 : Fin 2) = 0 :=
    (by decide +kernel : ∀ t : Fin grid0.N, win0_3.index t (0 : Fin 2) = t.val ∧ win0_3.index t (1 : Fin 2) = 0) ⟨n, hn⟩
  unfold iblk
  rw [View.read_apply]
  show V m c main_arg1 _ = m (c.tc.loc main_arg1) _
  rw [V_main_arg1]
  congr 1
  funext a
  apply Fin.ext
  match a with
  | ⟨0, _⟩ => show win0_3.index ⟨n, hn⟩ 0 * 400 + 1 * q.val = 400 * n + q.val; rw [hi.1]; omega
  | ⟨1, _⟩ => show win0_3.index ⟨n, hn⟩ 1 * 10000 + 1 * k.val = k.val; rw [hi.2]; omega

end Cert.GcnMean.Blocks

end
-- ==== Proof.Bridge.lean ====
/-
  At the exact instance the kernel's result entry is the specification's mean.

  The support buffer is `x · w`. The running column sums after grid point `n` are those after the point before plus
  tile `n`'s column sum of activations (zero before the first point), because at point `n` the adjacency window holds
  rows `400 n … 400 n + 399`, the bias window holds the bias as a row, and the support buffer holds the support. So
  after the last point the running sums are the sum over the 25 tiles, the output row is that times `1 / 10000`, and
  this is the reference's column sum divided by the word of 10000. Re-laid from one row of 128 entries to 128 entries
  it is the specification's mean, column by column.
-/
import proofs.«105255_g53188874994287_cont_sun_m_952_13_alg».proof.Proof.Points
import proofs.«105255_g53188874994287_cont_sun_m_952_13_alg».proof.Proof.Payload
import proofs.«105255_g53188874994287_cont_sun_m_952_13_alg».proof.Proof.Algebra
import proofs.«105255_g53188874994287_cont_sun_m_952_13_alg».proof.Proof.Blocks
import Idealize.ShloMosaic.Lib.ValueLayout

noncomputable section

open scoped BigOperators

namespace Cert.GcnMean.Bridge

open Idealize.ShloMosaic Idealize.ShloMosaic.TcCoe Idealize.ShloMosaic.ValueIdx Idealize.SL.Sem Cert.KernelIdeal
  Cert.KernelIdeal.Gen Cert.GcnMean Cert.GcnMean.Points

variable (m : (ℓ : Loc nD τ sig) → Buf (Elt Ideal) ℓ) (c : Dev nD)

set_option quotPrecheck false in
/-- The node features, as the kernel is launched on them. -/
local notation "X" => m ((c : Thread nD τ).loc main_arg0)
set_option quotPrecheck false in
/-- The adjacency matrix. -/
local notation "A" => m ((c : Thread nD τ).loc main_arg1)
set_option quotPrecheck false in
/-- The weight. -/
local notation "W" => m ((c : Thread nD τ).loc main_arg2)
set_option quotPrecheck false in
/-- The bias. -/
local notation "B" => m ((c : Thread nD τ).loc main_arg3)

/-- The support buffer at `(k, col)` is the specification's support. -/
theorem supp_apply (k : Fin 10000) (col : Fin 128) :
    (supp m c : Vec Ideal S10000x128 .bf16) (ix2 k col) = support X W k col := by
  unfold supp
  rw [Blocks.block_x, Blocks.block_w]
  exact Payload.pay1_apply _ _ k col

/-- One grid point's update of the running sums at column `col`: at point `n` the adjacency window holds tile `n`'s
    rows, so the update adds tile `n`'s column sum of activations to whatever row `acc` it starts from. -/
theorem tile_step (n : ℕ) (hn : n < cfg0.N) (hn' : n < 25) (acc : Vec Ideal S1x128 .f32) (col : Fin 128) :
    k0_pay3 (F := Ideal) (iblk m c 3 ⟨n, hn⟩) (supp m c) (iblk m c 2 ⟨n, hn⟩) acc (ix2 (0 : Fin 1) col)
      = acc (ix2 (0 : Fin 1) col) + tileSum A (support X W) (fun c' => B (ix1 c')) ⟨n, hn'⟩ col := by
  refine (Payload.pay3_apply _ _ _ acc col).trans ?_
  refine congrArg (acc (ix2 (0 : Fin 1) col) + ·) ?_
  unfold tileSum act
  refine Finset.sum_congr rfl fun q _ => ?_
  refine congrArg Ideal.tanh ?_
  refine congrArg₂ (· + ·) (Finset.sum_congr rfl fun k _ => ?_) (Blocks.block_b m c ⟨n, hn⟩ col)
  rw [Blocks.block_adj m c n hn hn' q k, supp_apply]

/-- The running sums after the first point at column `col`: zero plus tile 0's column sum. -/
theorem sums_zero (h : 0 < cfg0.N) (col : Fin 128) :
    sums m c 0 h (ix2 (0 : Fin 1) col)
      = 0 + tileSum A (support X W) (fun c' => B (ix1 c')) ⟨0, by decide⟩ col := by
  rw [sums]
  refine (tile_step m c 0 h (by decide) _ col).trans ?_
  rw [Payload.pay2_apply]

/-- The running sums after point `n + 1` at column `col`: the point before's plus tile `n + 1`'s column sum. -/
theorem sums_succ (n : ℕ) (h : n + 1 < cfg0.N) (h' : n + 1 < 25) (col : Fin 128) :
    sums m c (n + 1) h (ix2 (0 : Fin 1) col)
      = sums m c n (Nat.lt_of_succ_lt h) (ix2 (0 : Fin 1) col)
        + tileSum A (support X W) (fun c' => B (ix1 c')) ⟨n + 1, h'⟩ col := by
  rw [sums]
  exact tile_step m c (n + 1) h h' _ col

/-- THE BRIDGE: the output row at column `col` is the specification's mean. The running sums after the last point are
    the sum of the 25 tiles' column sums; times `1 / 10000` that is the whole column sum divided by the word of 10000. -/
theorem out_apply (h : 23 + 1 < cfg0.N) (col : Fin 128) :
    (k0_pay4 (F := Ideal) (sums m c (23 + 1) h) : Vec Ideal S1x128 .f32) (ix2 (0 : Fin 1) col)
      = colMean X A W B col := by
  have hN : cfg0.N = 25 := N_0
  have hrun : sums m c (23 + 1) h (ix2 (0 : Fin 1) col)
      = ∑ t : Fin 25, tileSum A (support X W) (fun c' => B (ix1 c')) t col :=
    running_sum (fun t => tileSum A (support X W) (fun c' => B (ix1 c')) t col)
      (fun n hn => sums m c n (lt_of_lt_of_eq hn hN.symm) (ix2 (0 : Fin 1) col))
      (fun h0 => sums_zero m c (lt_of_lt_of_eq h0 hN.symm) col)
      (fun n hn => sums_succ m c n (lt_of_lt_of_eq hn hN.symm) hn col)
  rw [Payload.pay4_apply, hrun]
  unfold tileSum colMean
  exact tiled_mean_eq (fun r => act A (support X W) (fun c' => B (ix1 c')) r col)

/-- The same entry after the row of 128 entries is re-laid as 128 entries, as the program's last host line does. -/
theorem result_apply (h : 23 + 1 < cfg0.N) (col : Fin 128) :
    (shapeCast S128 (k0_pay4 (F := Ideal) (sums m c (23 + 1) h)) shapeCasts_S1x128_S128 : S128.Idx → EReal) (ix1 col)
      = colMean X A W B col :=
  (shapeCast_1a_a_apply _ _ col).trans (out_apply m c h col)

end Cert.GcnMean.Bridge

end
-- ==== Proof.RefValue.lean ====
/-
  The reference's result, read at an entry, is the specification.

  The reference program forms `x · w`, multiplies it by the adjacency, adds the bias broadcast to every row, applies
  `tanh`, sums each column over the 10000 rows starting from the zero word, and divides by the word of 10000. Read at
  column `c`, stage by stage, this is `colMean x adj w b c`: each stage at an index is a function of its operands at an
  index, and the indices the stages compose are the coordinate pairs `(r, c)`, `(r, k)`, `(k, c)`, `(k, d)`, `(d, c)`.
-/
import proofs.«105255_g53188874994287_cont_sun_m_952_13_alg».proof.Proof.Gen.ReferenceIdeal.Read
import proofs.«105255_g53188874994287_cont_sun_m_952_13_alg».proof.Proof.Spec
import Idealize.ShloMosaic.Lib.ValueIdx

noncomputable section

open scoped BigOperators

namespace Cert.GcnMean.RefValue

open Idealize.ShloMosaic Idealize.ShloMosaic.ValueIdx Cert.ReferenceIdeal Cert.ReferenceIdeal.Gen Cert.ReferenceIdeal.Read
  Idealize.ShloMosaic.StableHlo

/-! ## The indices the stages compose, as coordinate pairs -/

/-- The column sum reads row `r` of column `c`. -/
theorem idx_v6 (c : Fin 128) (r : Fin 10000) : idx_main_v6 (ix1 c) r = ix2 r c :=
  funext fun a => Fin.ext (by match a with | ⟨0, _⟩ => rfl | ⟨1, _⟩ => rfl)

/-- The second product reads the adjacency at `(r, k)` … -/
theorem lidx_v1 (r : Fin 10000) (c : Fin 128) (k : Fin 10000) : lidx_main_v1 (ix2 r c) k = ix2 r k :=
  funext fun a => Fin.ext (by match a with | ⟨0, _⟩ => rfl | ⟨1, _⟩ => rfl)

/-- … and the support at `(k, c)`. -/
theorem ridx_v1 (r : Fin 10000) (c : Fin 128) (k : Fin 10000) : ridx_main_v1 (ix2 r c) k = ix2 k c :=
  funext fun a => Fin.ext (by match a with | ⟨0, _⟩ => rfl | ⟨1, _⟩ => rfl)

/-- The first product reads the features at `(k, d)` … -/
theorem lidx_v0 (k : Fin 10000) (c : Fin 128) (d : Fin 128) : lidx_main_v0 (ix2 k c) d = ix2 k d :=
  funext fun a => Fin.ext (by match a with | ⟨0, _⟩ => rfl | ⟨1, _⟩ => rfl)

/-- … and the weight at `(d, c)`. -/
theorem ridx_v0 (k : Fin 10000) (c : Fin 128) (d : Fin 128) : ridx_main_v0 (ix2 k c) d = ix2 d c :=
  funext fun a => Fin.ext (by match a with | ⟨0, _⟩ => rfl | ⟨1, _⟩ => rfl)

/-- The bias broadcast to every row reads the bias at `c`, whatever the row. -/
theorem idx_v3_v2 (r : Fin 10000) (c : Fin 128) : idx_main_v2 (idx_main_v3 (ix2 r c)) = ix1 c :=
  funext fun a => Fin.ext (by match a with | ⟨0, _⟩ => rfl)

/-! ## The stages at a coordinate pair -/

/-- `x · w` at `(k, c)` is the support. -/
theorem v0_at (x : (⟨S10000x128, .f32⟩ : BufTy).Contents (Elt Ideal)) (w : (⟨S128x128, .f32⟩ : BufTy).Contents (Elt Ideal))
    (k : Fin 10000) (c : Fin 128) :
    val_main_v0 (F := Ideal) x w (ix2 k c) = Cert.GcnMean.support x w k c := by
  rw [val_main_v0_apply]
  unfold Cert.GcnMean.support
  refine Finset.sum_congr rfl fun d _ => ?_
  rw [lidx_v0, ridx_v0]

/-- The broadcast bias at `(r, c)` is the bias at `c`. -/
theorem v3_at (b : (⟨S128, .f32⟩ : BufTy).Contents (Elt Ideal)) (r : Fin 10000) (c : Fin 128) :
    val_main_v3 (F := Ideal) b (ix2 r c) = b (ix1 c) := by
  rw [val_main_v3_apply, val_main_v2_apply, idx_v3_v2]

/-- The activation stage at `(r, c)` is the specification's activation. -/
theorem v5_at (x : (⟨S10000x128, .f32⟩ : BufTy).Contents (Elt Ideal)) (adj : (⟨S10000x10000, .f32⟩ : BufTy).Contents (Elt Ideal))
    (w : (⟨S128x128, .f32⟩ : BufTy).Contents (Elt Ideal)) (b : (⟨S128, .f32⟩ : BufTy).Contents (Elt Ideal))
    (r : Fin 10000) (c : Fin 128) :
    val_main_v5 (F := Ideal) x adj w b (ix2 r c)
      = Cert.GcnMean.act adj (Cert.GcnMean.support x w) (fun c' => b (ix1 c')) r c := by
  rw [val_main_v5_apply, val_main_v4_apply, val_main_v1_apply, v3_at, Ideal.hostUnary_tanh_def, Ideal.addf_def]
  unfold Cert.GcnMean.act
  refine congrArg (fun s => Ideal.tanh (s + b (ix1 c))) ?_
  refine Finset.sum_congr rfl fun k _ => ?_
  rw [lidx_v1, ridx_v1, v0_at]

/-! ## The result -/

/-- The reference's result at column `c` is the specification's column mean. -/
theorem ref_apply (x : (⟨S10000x128, .f32⟩ : BufTy).Contents (Elt Ideal)) (adj : (⟨S10000x10000, .f32⟩ : BufTy).Contents (Elt Ideal))
    (w : (⟨S128x128, .f32⟩ : BufTy).Contents (Elt Ideal)) (b : (⟨S128, .f32⟩ : BufTy).Contents (Elt Ideal)) (c : Fin 128) :
    val_main_v8 (F := Ideal) x adj w b (ix1 c) = Cert.GcnMean.colMean x adj w b c := by
  rw [val_main_v8_apply, val_main_v6_apply, val_main_v7_apply, val_main_cst_apply, val_main_cst_0_apply,
    Ideal.hostDivf_def, Ideal.ofBits_def, Ideal.ofBits_def]
  unfold Cert.GcnMean.colMean
  refine congrArg (fun s => Ideal.div (Ideal.ofBits .f32 0x00000000#32 + s) (Ideal.ofBits .f32 0x461C4000#32)) ?_
  refine Finset.sum_congr rfl fun r _ => ?_
  rw [idx_v6, v5_at]

/-- The same for the term the run of the reference states for its result. -/
theorem run_term_apply (x : (⟨S10000x128, .f32⟩ : BufTy).Contents (Elt Ideal)) (adj : (⟨S10000x10000, .f32⟩ : BufTy).Contents (Elt Ideal))
    (w : (⟨S128x128, .f32⟩ : BufTy).Contents (Elt Ideal)) (b : (⟨S128, .f32⟩ : BufTy).Contents (Elt Ideal)) (c : Fin 128) :
    (Host.divf (F := Ideal) (Host.reduceAdd (F := Ideal) (Host.tanh (F := Ideal) (addf (Host.dotGeneral (F := Ideal) (φ₁ := .f32) (φ₂ := .f32) dot_S10000x10000_S10000x128_S10000x128_1_0_0_1_n_n none adj (Host.dotGeneral (F := Ideal) (φ₁ := .f32) (φ₂ := .f32) dot_S10000x128_S128x128_S10000x128_1_0_0_1_n_n none x w)) (broadcastInDim S10000x128 ![0, 1] bcast_S1x128_S10000x128_0_1 (broadcastInDim S1x128 ![1] bcast_S128_S1x128_1 b)))) (constant S_ .f32 0x00000000#32) reducesTo_S10000x128_S128_d0 h_S_) (broadcastInDim S128 ![] bcast_S_S128 (constant S_ .f32 0x461C4000#32)) : (⟨S128, .f32⟩ : BufTy).Contents (Elt Ideal)) (ix1 c)
      = Cert.GcnMean.colMean x adj w b c := by
  rw [val_main_v8_eq]
  exact ref_apply x adj w b c

end Cert.GcnMean.RefValue

end
-- ==== Proof.Claims.lean ====
/-
  The five claims.

  The three frames: the kernel program's and its idealization's are the generated frame runs; the reference has no
  kernel, so its frame is its run with the result dropped. The idealization rewrote one constant, the kernel's
  reciprocal of the row count, named as the rational 1/10000. And at the exact instance both programs end at the mean
  over the 10000 rows of `tanh ((adj · (x · w))[r, c] + b[c])`: the kernel as 25 tiles' column sums added one after the
  other and multiplied by 1/10000, the reference as one column sum divided by 10000 — the same extended real, since a
  finite sum does not depend on how it is grouped and a quotient by a nonzero real is the product with its reciprocal.
-/
import proofs.«105255_g53188874994287_cont_sun_m_952_13_alg».proof.Defs
import proofs.«105255_g53188874994287_cont_sun_m_952_13_alg».proof.Proof.Gen.Kernel.Frame
import proofs.«105255_g53188874994287_cont_sun_m_952_13_alg».proof.Proof.Gen.KernelIdeal.Frame
import proofs.«105255_g53188874994287_cont_sun_m_952_13_alg».proof.Proof.Gen.ReferenceIdeal.Run
import proofs.«105255_g53188874994287_cont_sun_m_952_13_alg».proof.Proof.Gen.Pre_finite_inputs
import proofs.«105255_g53188874994287_cont_sun_m_952_13_alg».proof.Proof.KernelRun
import proofs.«105255_g53188874994287_cont_sun_m_952_13_alg».proof.Proof.Bridge
import proofs.«105255_g53188874994287_cont_sun_m_952_13_alg».proof.Proof.RefValue

noncomputable section

open Idealize.ShloMosaic Idealize.ShloMosaic.TcCoe Idealize.SL.Sem

namespace Cert.Proof.Claims

/-- The kernel program runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the word nearest to 1/10000 is read as 1/10000. -/
theorem preserves : Cert.preserves_Kernel_KernelIdeal :=
  IdealRules.named_const.statement Cert.KernelIdeal.κ "inv_10000" .f32 0x38D1B717#32 ((1 / 10000 : ℝ) : EReal) rfl

/-- At the exact instance, from memories that agree on the four arguments, both programs run and end with the same
    128 extended reals: entry `c` of the kernel's result is the last running sum of column `c` times 1/10000, re-laid
    from a row to a vector, entry `c` of the reference's is the whole column sum divided by 10000, and both are the
    specification's mean. -/
theorem algebraic : Cert.algebraic_KernelIdeal_ReferenceIdeal := by
  intro m ρ m' ρ' _ hagree
  refine ⟨_, Cert.GcnMean.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  funext i
  obtain ⟨col, rfl⟩ : ∃ col : Fin 128, i = ValueIdx.ix1 col := ⟨i 0, ValueIdx.eq_ix1 i⟩
  exact (Cert.GcnMean.RefValue.run_term_apply _ _ _ _ col).trans
    (Cert.GcnMean.Bridge.result_apply m c Cert.GcnMean.KernelRun.last_lt col).symm

end Cert.Proof.Claims

end
-- ==== Proof.lean ====
/-
  The certificate of a graph-convolution layer with a mean over the nodes.

  The claim has five parts. Both kernel programs, as printed and idealized, run to the end from any memory and leave
  the four argument arrays (node features, dense adjacency, weight, bias) as they found them, and so does the reference.
  The idealized kernel differs from the printed one in one constant, the reciprocal of the number of rows, read as the
  rational 1/10000. And over the extended reals the idealized kernel and the idealized reference return the same vector:
  for each of the 128 columns the mean over the 10000 rows of `tanh ((adj · (x · w))[r, c] + b[c])`. The kernel reaches
  it by adding the column sums of 25 row tiles to a running sum and multiplying by 1/10000 at the end, the reference by
  one sum over all rows divided by 10000; regrouping a finite sum and trading a quotient by 10000 for the product
  with 1/10000 are valid for every extended real, so no entry needs to be finite.

  The parts are proved in Proof/Claims.lean, over: Proof/Spec.lean (the function), Proof/Algebra.lean (the two laws),
  Proof/Pieces.lean and Proof/Points.lean (what the kernel body leaves, case by case and point by point),
  Proof/KernelRun.lean (the kernel program's run read as a value), Proof/Payload.lean and Proof/Blocks.lean (the body's
  arithmetic and the input blocks read at an entry), Proof/Bridge.lean (the kernel's value is the function) and
  Proof/RefValue.lean (so is the reference's).
-/
import proofs.«105255_g53188874994287_cont_sun_m_952_13_alg».proof.Defs
import proofs.«105255_g53188874994287_cont_sun_m_952_13_alg».proof.Proof.Claims
import proofs.«105255_g53188874994287_cont_sun_m_952_13_alg».proof.Proof.Gen.Kernel
import proofs.«105255_g53188874994287_cont_sun_m_952_13_alg».proof.Proof.Gen.KernelIdeal
import proofs.«105255_g53188874994287_cont_sun_m_952_13_alg».proof.Proof.Gen.ReferenceIdeal
import proofs.«105255_g53188874994287_cont_sun_m_952_13_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
